-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩
abbrev S100000x64 : Shape := ⟨2, ![100000, 64]⟩
abbrev S4000x64 : Shape := ⟨2, ![4000, 64]⟩
abbrev S1700000x64 : Shape := ⟨2, ![1700000, 64]⟩
abbrev S1x64 : Shape := ⟨2, ![1, 64]⟩

abbrev nBuf : Space → Nat
  | .hbm => 77
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x64, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x1, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S128x64, .f32⟩
  | .local _ .vmem, ⟨9, _⟩ => ⟨S4000x64, .f32⟩
  | .local _ .vmem, ⟨10, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x1, .f32⟩
  | .hbm, ⟨73, _⟩ => ⟨S1700000x64, .f32⟩
  | .hbm, ⟨74, _⟩ => ⟨S1700000x64, .f32⟩
  | .hbm, ⟨75, _⟩ => ⟨S_, .f32⟩
  | .hbm, ⟨76, _⟩ => ⟨S100000x64, .f32⟩
  | .hbm, ⟨77, _⟩ => ⟨S1700000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's whole run, with its result named.

  The program is five stretches in a row: host operations, the first matrix product as a grid of 25 row blocks,
  host operations, the second (bias, rectifier and product fused) as another grid of 25 row blocks, and the host
  operations that end in the result.  The contents of the TensorCore's buffers at the end of the last stretch are a
  fold through the five stretches from the launch memory: a host stretch applies its operations in order, a grid
  leaves its output array at what its 25 write-backs add up to and every other buffer alone.  Every weakly fair
  execution terminates, without a fault, in a state whose buffers hold exactly that fold; read at the result
  buffer this names the result, and read at an argument it gives the argument back.
-/
import proofs.«148880_j27693949125321_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution terminates, nothing faulting, with the result
    buffer at the fold of the five stretches read there, and every argument array as launched. -/
theorem run_result : θ_run defs (onTc (τ := τ) (main (F := F))) ⟨m, fun _ => 0, ρ⟩ (fun r => ∀ c : Dev nD,
      r.2.mem ((c.tc : Thread nD τ).loc main_v58) = W5 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v58 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.WholeRun

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibDotRowsByCols.lean ====
/-
  A host matrix product read at an entry.

  On the extended reals jnp's `dot_general` of an `[M, K]` left operand and a `[K, N]` right operand (the contraction on
  the left's second axis and the right's first, no batch axis) is at entry `(p, q)` the plain sum `∑ₖ l(p, k) · r(k, q)`:
  no rounding, no order of accumulation. The dimension record is kept abstract; what is asked of it is that it contracts
  one axis of extent `K` and reads its operands at `(p, k)` and `(k, q)`, four facts a concrete record gives by
  unfolding. (The host-side companion of the same statement for a `tpu.matmul` into a zero accumulator.) Imports only the
  library.
-/
import Idealize.ShloMosaic.PureOps.Ideal.Laws
import Idealize.ShloMosaic.Lib.ValueIdx

namespace Idealize.ShloMosaic.DotRowsByCols

open Idealize.ShloMosaic Idealize.ShloMosaic.ValueIdx

/-- `Host.dotGeneral D prec l r` at `(p, q)` is `∑ k, l (p, k) * r (k, q)`. -/
theorem dotGeneral_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  refine (Ideal.dotGeneral_apply D prec .single l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.DotRowsByCols
-- ==== Proof.LibMatrixProduct.lean ====
/-
  The product of two matrices of extended reals, as an array.

  For an `[M, K]` array `x` and a `[K, N]` array `w` of extended reals the product `x · w` is the `[M, N]` array whose
  entry `(p, q)` is `∑ₖ x(p, k) · w(k, q)`. On the extended reals, where no operation rounds and a sum has no order, two
  operations compute exactly this array: jnp's `dot_general` of the two operands (contraction on the left's second axis and
  the right's first, no batch axis), and a `tpu.matmul` with the same dimension numbers accumulated into the zero splat.
  The dimension record is kept abstract; what is asked of it is that it contracts one axis of extent `K` and reads its
  operands at `(p, k)` and `(k, q)`, facts a concrete record gives by unfolding.

  A row of the product reads only the same row of the left factor (`prod_row`): this is why a product computed block of
  rows by block of rows is the whole product.  Any extents.
-/
import Idealize.ShloMosaic.PureOps.Ideal.Laws
import Idealize.ShloMosaic.Lib.ValueIdx
import proofs.«148880_j27693949125321_1_alg».proof.Proof.LibMatmulRowsByCols
import proofs.«148880_j27693949125321_1_alg».proof.Proof.LibDotRowsByCols

namespace Idealize.ShloMosaic.MatrixProduct

open Idealize.ShloMosaic Idealize.ShloMosaic.ValueIdx

variable {M K N : ℕ} {φ₁ φ₂ : FTy}

/-- The product array: entry `i = (p, q)` is `∑ₖ x(p, k) · w(k, q)`. -/
noncomputable def prod (x : FVec Ideal ⟨2, ![M, K]⟩ φ₁) (w : FVec Ideal ⟨2, ![K, N]⟩ φ₂) : FVec Ideal ⟨2, ![M, N]⟩ .f32 :=
  fun i => ∑ k : Fin K, x (ix2 (i 0) k) * w (ix2 k (i 1))

/-- The product read at coordinates. -/
theorem prod_apply (x : FVec Ideal ⟨2, ![M, K]⟩ φ₁) (w : FVec Ideal ⟨2, ![K, N]⟩ φ₂) (p : Fin M) (q : Fin N) :
    prod x w (ix2 p q) = ∑ k : Fin K, x (ix2 p k) * w (ix2 k q) := rfl

/-- Row `p'` of `x' · w` is row `p` of `x · w` as soon as row `p'` of `x'` is row `p` of `x`: a row of the product reads
    one row of the left factor and all of the right one. -/
theorem prod_row {M' : ℕ} (x : FVec Ideal ⟨2, ![M, K]⟩ φ₁) (x' : FVec Ideal ⟨2, ![M', K]⟩ φ₁)
    (w : FVec Ideal ⟨2, ![K, N]⟩ φ₂) (p : Fin M) (p' : Fin M') (q : Fin N)
    (h : ∀ k : Fin K, x' (ix2 p' k) = x (ix2 p k)) : prod x' w (ix2 p' q) = prod x w (ix2 p q) := by
  rw [prod_apply, prod_apply]
  exact Finset.sum_congr rfl fun k _ => by rw [h k]

/-- jnp's `dot_general` of an `[M, K]` and a `[K, N]` operand is their product. -/
theorem dotGeneral_eq (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r := by
  funext i
  obtain ⟨p, q, rfl⟩ : ∃ (p : Fin M) (q : Fin N), i = ix2 p q := ⟨i 0, i 1, eq_ix2 i⟩
  exact DotRowsByCols.dotGeneral_apply D hr hs hl0 hl1 hr0 hr1 prec l r p q

/-- A `tpu.matmul` of an `[M, K]` and a `[K, N]` operand into the zero accumulator is their product. -/
theorem matmul_zero_eq (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r := by
  funext i
  obtain ⟨p, q, rfl⟩ : ∃ (p : Fin M) (q : Fin N), i = ix2 p q := ⟨i 0, i 1, eq_ix2 i⟩
  exact MatmulRowsByCols.matmul_zero_apply D hr hs hl0 hl1 hr0 hr1 prec l r p q

end Idealize.ShloMosaic.MatrixProduct
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.LibRowBroadcast.lean ====
/-
  A vector broadcast over the rows of a matrix, and a scalar over all of it, read at an entry.

  jnp adds a bias vector `b` of length `n` to an `[a, n]` matrix by two `broadcast_in_dim`s: `[n] -> [1, n]` along axis 1,
  then `[1, n] -> [a, n]` along axes (0, 1). Read at `(p, q)` the result is `b q`, whatever the row `p`. A scalar
  broadcast to any shape reads, at every index, the scalar. Any extents; imports only the library.
-/
import Idealize.ShloMosaic.Lib.Pipeline.Value
import Idealize.ShloMosaic.Lib.ValueIdx

namespace Idealize.ShloMosaic.RowBroadcast

open Idealize.ShloMosaic Idealize.ShloMosaic.ValueIdx

variable {α : Type}

/-- `[n] -> [1, n] -> [a, n]` read at `(p, q)` is the vector at `q`. -/
theorem row_apply {a n : ℕ} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1])
    (p : Fin a) (q : Fin n) :
    broadcastInDim ⟨2, ![a, n]⟩ ![0, 1] h2 (broadcastInDim ⟨2, ![1, n]⟩ ![1] h1 x) (ix2 p q) = x (ix1 q) := by
  refine (broadcastInDim_apply ![0, 1] h2 _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply ![1] h1 x (ix2 (0 : Fin 1) q) (ix1 q) fun ax => ?_
    match ax with
    | ⟨0, _⟩ =>
      show q.val = if n = 1 then 0 else q.val
      split
      · have := q.isLt; omega
      · rfl

/-- A scalar broadcast to any shape reads the scalar at every index. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

end Idealize.ShloMosaic.RowBroadcast
-- ==== Proof.LibRectifiedRows.lean ====
/-
  A bias row added to every row of a matrix, then the rectifier — in the two spellings programs give it.

  For an [M, n] array A and a one-row [1, n] array B the rectified sum is the [M, n] array whose entry (p, q) is
  max(A(p, q) + B(0, q), 0), the zero being the zero float word. Two spellings compute exactly this array on the
  extended reals:
    * a kernel's: both operands shape-cast to their own shapes, the row broadcast down the rows and added, the maximum
      taken with a splat of the scalar zero;
    * the host's, from a bias VECTOR b of length n: b broadcast [n] → [1, n] → [M, n] by two broadcast_in_dim's and
      added, the maximum taken with a scalar zero broadcast to the shape — the rectified sum of A and b viewed as a
      one-row matrix.
  An entry reads one entry of A and one of B (`rectified_row`): a block of rows of the rectified sum is the
  rectified sum of that block of rows. Any extents.
-/
import Idealize.ShloMosaic.PureOps.Ideal.Laws
import Idealize.ShloMosaic.Lib.ValueIdx
import Idealize.ShloMosaic.Lib.Pipeline.Value
import proofs.«148880_j27693949125321_1_alg».proof.Proof.LibOneRowMatrix
import proofs.«148880_j27693949125321_1_alg».proof.Proof.LibRowBroadcast

namespace Idealize.ShloMosaic.RectifiedRows

open Idealize.ShloMosaic Idealize.ShloMosaic.ValueIdx

variable {M M' n : ℕ}

/-- Entry i = (p, q) is max(A(p, q) + B(0, q), 0). -/
noncomputable def rectified (A : FVec Ideal ⟨2, ![M, n]⟩ .f32) (B : FVec Ideal ⟨2, ![1, n]⟩ .f32) : FVec Ideal ⟨2, ![M, n]⟩ .f32 :=
  fun i => FloatOps.maximumf (FloatOps.addf (A i) (B (ix2 (0 : Fin 1) (i 1)))) (FloatOps.ofBits (F := Ideal) .f32 0x00000000#32)

theorem rectified_apply (A : FVec Ideal ⟨2, ![M, n]⟩ .f32) (B : FVec Ideal ⟨2, ![1, n]⟩ .f32) (p : Fin M) (q : Fin n) :
    rectified A B (ix2 p q)
      = FloatOps.maximumf (FloatOps.addf (A (ix2 p q)) (B (ix2 (0 : Fin 1) q))) (FloatOps.ofBits (F := Ideal) .f32 0x00000000#32) := rfl

/-- Row p' of the rectified sum of A' and B is row p of that of A and B as soon as row p' of A' is row p of A. -/
theorem rectified_row (A : FVec Ideal ⟨2, ![M, n]⟩ .f32) (A' : FVec Ideal ⟨2, ![M', n]⟩ .f32) (B : FVec Ideal ⟨2, ![1, n]⟩ .f32)
    (p : Fin M) (p' : Fin M') (q : Fin n) (h : A' (ix2 p' q) = A (ix2 p q)) :
    rectified A' B (ix2 p' q) = rectified A B (ix2 p q) := by
  rw [rectified_apply, rectified_apply, h]

/-- A kernel's spelling. -/
theorem kernel_spelling (A : FVec Ideal ⟨2, ![M, n]⟩ .f32) (B : FVec Ideal ⟨2, ![1, n]⟩ .f32)
    (hA : (⟨2, ![M, n]⟩ : Shape).ShapeCasts ⟨2, ![M, n]⟩) (hB : (⟨2, ![1, n]⟩ : Shape).ShapeCasts ⟨2, ![1, n]⟩)
    (hb : (⟨2, ![1, n]⟩ : Shape).Broadcasts ⟨2, ![M, n]⟩) :
    maximumf (addf (shapeCast ⟨2, ![M, n]⟩ A hA) (broadcastTo ⟨2, ![M, n]⟩ (shapeCast ⟨2, ![1, n]⟩ B hB) hb))
        (broadcast ⟨2, ![M, n]⟩ (Scalar.ofBits (F := Ideal) .f32 0x00000000#32))
      = rectified A B := by
  rw [shapeCast_self, shapeCast_self]
  funext i
  obtain ⟨p, q, rfl⟩ : ∃ (p : Fin M) (q : Fin n), i = ix2 p q := ⟨i 0, i 1, eq_ix2 i⟩
  show FloatOps.maximumf (FloatOps.addf (A (ix2 p q)) (broadcastTo ⟨2, ![M, n]⟩ B hb (ix2 p q))) (FloatOps.ofBits (F := Ideal) .f32 0x00000000#32) = _
  rw [OneRowMatrix.broadcast_row_apply]
  rfl

/-- The host's spelling, from a bias vector. -/
theorem host_spelling (A : FVec Ideal ⟨2, ![M, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![M, n]⟩ ![0, 1])
    (h0 : (⟨0, ![]⟩ : Shape).BroadcastsInDim ⟨2, ![M, n]⟩ (![] : Fin 0 → Fin 2))
    (hc : (⟨1, ![n]⟩ : Shape).ShapeCasts ⟨2, ![1, n]⟩) :
    maximumf (addf A (broadcastInDim ⟨2, ![M, n]⟩ ![0, 1] h2 (broadcastInDim ⟨2, ![1, n]⟩ ![1] h1 b)))
        (broadcastInDim ⟨2, ![M, n]⟩ ![] h0 (constant (F := Ideal) ⟨0, ![]⟩ .f32 0x00000000#32))
      = rectified A (shapeCast ⟨2, ![1, n]⟩ b hc) := by
  funext i
  obtain ⟨p, q, rfl⟩ : ∃ (p : Fin M) (q : Fin n), i = ix2 p q := ⟨i 0, i 1, eq_ix2 i⟩
  show FloatOps.maximumf (FloatOps.addf (A (ix2 p q)) (broadcastInDim ⟨2, ![M, n]⟩ ![0, 1] h2 (broadcastInDim ⟨2, ![1, n]⟩ ![1] h1 b) (ix2 p q)))
      (broadcastInDim ⟨2, ![M, n]⟩ ![] h0 (constant (F := Ideal) ⟨0, ![]⟩ .f32 0x00000000#32) (ix2 p q)) = _
  rw [RowBroadcast.row_apply, RowBroadcast.scalar_apply, rectified_apply, OneRowMatrix.row_of_vector]
  rfl

end Idealize.ShloMosaic.RectifiedRows
-- ==== Proof.KernelProducts.lean ====
/-
  The two matrix products the kernel takes, as products.

  Each grid point multiplies a block of 4000 rows by the whole weight matrix: a contraction of the left operand's
  second axis against the right operand's first, accumulated into zero, after both operands have changed float
  format.  On the extended reals a change of format is the identity and the accumulation has no order, so what a
  point computes is the product array of its two blocks.  The four facts about each contraction say which entries it
  reads: row p and column k of the left operand, row k and column q of the right one.  The second grid's point first
  adds the bias row to every row of its block and rectifies; the product is taken of that.
-/
import proofs.«148880_j27693949125321_1_alg».proof.Proof.Gen.KernelIdeal.Frame
import proofs.«148880_j27693949125321_1_alg».proof.Proof.LibMatrixProduct
import Idealize.ShloMosaic.Lib.Pipeline.Value
import Idealize.ShloMosaic.Lib.ValueIdx
import Idealize.ShloMosaic.PureOps.Ideal.Laws
import proofs.«148880_j27693949125321_1_alg».proof.Proof.LibRectifiedRows

noncomputable section

namespace Cert.KernelIdeal.Products

open Cert.KernelIdeal Cert.KernelIdeal.Gen Idealize.ShloMosaic Idealize.ShloMosaic.ValueIdx

/-! ## The first contraction: [4000,128] by [128,128] -/

theorem d1_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem d1_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem d1_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem d1_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- What a point of the first grid stores: the product of its block of rows and the weight matrix. -/
theorem first_payload (x0 : Vec Ideal S4000x128 .f32) (x1 : Vec Ideal S128x128 .f32) :
    k0_pay1 (F := Ideal) x0 x1 = MatrixProduct.prod (M := 4000) (K := 128) (N := 128) (φ₁ := .f32) (φ₂ := .f32) x0 x1 := by
  unfold k0_pay1
  exact MatrixProduct.matmul_zero_eq (M := 4000) (K := 128) (N := 128) (φ₁ := .bf16) (φ₂ := .bf16) dot_S4000x128_S128x128_S4000x128_1_0_0_1_n_n rfl rfl d1_l0 d1_l1 d1_r0 d1_r1 none _ _

/-! ## The second contraction: [4000,128] by [128,64] -/

theorem d2_l0 (i : S4000x64.Idx) (q : dot_S4000x128_S128x64_S4000x64_1_0_0_1_n_n.contr.Idx) : (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem d2_l1 (i : S4000x64.Idx) (q : dot_S4000x128_S128x64_S4000x64_1_0_0_1_n_n.contr.Idx) : (dot_S4000x128_S128x64_S4000x64_1_0_0_1_n_n.lhsIdx i q 1).val = (q ⟨0, by decide⟩).val :=
  dot_S4000x128_S128x64_S4000x64_1_0_0_1_n_n.lhsIdx_val_of_single rfl i q
theorem d2_r0 (i : S4000x64.Idx) (q : dot_S4000x128_S128x64_S4000x64_1_0_0_1_n_n.contr.Idx) : (dot_S4000x128_S128x64_S4000x64_1_0_0_1_n_n.rhsIdx i q 0).val = (q ⟨0, by decide⟩).val :=
  dot_S4000x128_S128x64_S4000x64_1_0_0_1_n_n.rhsIdx_val_of_single rfl i q
theorem d2_r1 (i : S4000x64.Idx) (q : dot_S4000x128_S128x64_S4000x64_1_0_0_1_n_n.contr.Idx) : (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- What a point of the second grid stores: its block of rows with the bias row added and rectified, times the weight
    matrix. -/
theorem second_payload (x0 : Vec Ideal S4000x128 .f32) (x1 : Vec Ideal S1x128 .f32) (x2 : Vec Ideal S128x64 .f32) :
    k1_pay1 (F := Ideal) x0 x1 x2
      = MatrixProduct.prod (M := 4000) (K := 128) (N := 64) (φ₁ := .f32) (φ₂ := .f32) (RectifiedRows.rectified (M := 4000) (n := 128) x0 x1) x2 := by
  unfold k1_pay1
  refine (MatrixProduct.matmul_zero_eq (M := 4000) (K := 128) (N := 64) (φ₁ := .bf16) (φ₂ := .bf16) dot_S4000x128_S128x64_S4000x64_1_0_0_1_n_n rfl rfl d2_l0 d2_l1 d2_r0 d2_r1 none _ _).trans ?_
  show MatrixProduct.prod (M := 4000) (K := 128) (N := 64) (φ₁ := .f32) (φ₂ := .f32)
      (maximumf (addf (shapeCast S4000x128 x0 _) (broadcastTo S4000x128 (shapeCast S1x128 x1 _) _)) (broadcast S4000x128 (Scalar.ofBits (F := Ideal) .f32 0x00000000#32))) x2 = _
  rw [RectifiedRows.kernel_spelling]

end Cert.KernelIdeal.Products

end
-- ==== Proof.LibProductRowBlocks.lean ====
/-
  A matrix product computed one block of rows at a time.

  Cut the rows of an [M, K] array x into consecutive blocks of R rows: block b holds rows b·R … b·R + R − 1. The
  product of block b with a [K, N] array w is block b of the whole product x · w, because row p of a product reads
  only row p of the left factor. Entry (y₀, y₁) of block b is entry (b·R + y₀, y₁) of the whole array (`rowOf`).
  On the extended reals, any extents; imports the product array of LibMatrixProduct.
-/
import Idealize.ShloMosaic.PureOps.Ideal.Laws
import Idealize.ShloMosaic.Lib.ValueIdx
import proofs.«148880_j27693949125321_1_alg».proof.Proof.LibMatrixProduct

namespace Idealize.ShloMosaic.ProductRowBlocks

open Idealize.ShloMosaic Idealize.ShloMosaic.ValueIdx

variable {R M K N n : ℕ} {φ₁ φ₂ : FTy}

/-- Entry (y₀, y₁) of block b of R rows, as an entry of the whole array: row b·R + y₀, the same column. -/
def rowOf (b : ℕ) (hb : b * R + R ≤ M) (y : (⟨2, ![R, n]⟩ : Shape).Idx) : (⟨2, ![M, n]⟩ : Shape).Idx :=
  ix2 (⟨b * R + (y 0).val, by have h : (y 0).val < R := idx2_lt0 y; omega⟩ : Fin M) (⟨(y 1).val, idx2_lt1 y⟩ : Fin n)

theorem rowOf_ix2 (b : ℕ) (hb : b * R + R ≤ M) (p : Fin R) (q : Fin n) :
    rowOf (M := M) b hb (ix2 p q) = ix2 (⟨b * R + p.val, by have := p.isLt; omega⟩ : Fin M) q := rfl

/-- The first coordinate of `rowOf` is b·R plus the block's, the second the block's. -/
theorem rowOf_val0 (b : ℕ) (hb : b * R + R ≤ M) (y : (⟨2, ![R, n]⟩ : Shape).Idx) : (rowOf (M := M) b hb y 0).val = b * R + (y 0).val := rfl
theorem rowOf_val1 (b : ℕ) (hb : b * R + R ≤ M) (y : (⟨2, ![R, n]⟩ : Shape).Idx) : (rowOf (M := M) b hb y 1).val = (y 1).val := rfl

/-- The product of block b of the rows with the right factor is block b of the rows of the whole product. -/
theorem prod_block (X : FVec Ideal ⟨2, ![M, K]⟩ φ₁) (W : FVec Ideal ⟨2, ![K, N]⟩ φ₂)
    (x0 : FVec Ideal ⟨2, ![R, K]⟩ φ₁) (x1 : FVec Ideal ⟨2, ![K, N]⟩ φ₂) (b : ℕ) (hb : b * R + R ≤ M)
    (h0 : ∀ y : (⟨2, ![R, K]⟩ : Shape).Idx, x0 y = X (rowOf b hb y)) (h1 : x1 = W) :
    MatrixProduct.prod x0 x1 = fun y : (⟨2, ![R, N]⟩ : Shape).Idx => MatrixProduct.prod X W (rowOf b hb y) := by
  subst h1
  funext y
  obtain ⟨p, q, rfl⟩ : ∃ (p : Fin R) (q : Fin N), y = ix2 p q := ⟨y 0, y 1, eq_ix2 y⟩
  rw [rowOf_ix2]
  refine MatrixProduct.prod_row X x0 x1 _ p q fun k => ?_
  rw [h0 (ix2 p k), rowOf_ix2]

end Idealize.ShloMosaic.ProductRowBlocks
-- ==== Proof.FirstProduct.lean ====
/-
  The array the first grid leaves: the whole product x · W1.

  The grid has 25 points. Point t reads rows 4000·t … 4000·t + 3999 of x and all of W1, and writes the product of the
  two blocks back over the same rows of the output. A row of a product reads only the same row of the left factor,
  so the block written at point t is rows 4000·t … 4000·t + 3999 of the whole product x · W1; the 25 blocks of rows
  cover every row (row r lies in the block of point r / 4000), so after the last write-back the output array is
  x · W1, whatever the region found in it.
-/
import proofs.«148880_j27693949125321_1_alg».proof.Proof.Gen.KernelIdeal.Frame
import proofs.«148880_j27693949125321_1_alg».proof.Proof.LibMatrixProduct
import Idealize.ShloMosaic.Lib.Pipeline.Value
import Idealize.ShloMosaic.Lib.ValueIdx
import Idealize.ShloMosaic.PureOps.Ideal.Laws
import proofs.«148880_j27693949125321_1_alg».proof.Proof.KernelProducts
import proofs.«148880_j27693949125321_1_alg».proof.Proof.LibProductRowBlocks

set_option maxRecDepth 16384

noncomputable section

namespace Cert.KernelIdeal.FirstProduct

open Cert.KernelIdeal Cert.KernelIdeal.Gen Idealize.ShloMosaic Idealize.ShloMosaic.TcCoe Idealize.ShloMosaic.ValueIdx Idealize.SL.Sem
open Idealize.ShloMosaic.Pipeline (Dat)
open Idealize.ShloMosaic.ProductRowBlocks (rowOf)

theorem zero_offsets : (![0, 0] : Fin 2 → Nat) = fun _ => 0 := funext fun a => by fin_cases a <;> rfl

variable (V : (c : Dev nD) → (b : Ref sig .tc) → Buf (Elt Ideal) ((c : Thread nD τ).loc b))

/-- The printed index maps over the grid: the two row-blocked windows sit at block (t, 0), the weights at (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of the two arrays the region finds at its operands. -/
def wholeProduct (c : Dev nD) : FVec Ideal S100000x128 .f32 :=
  MatrixProduct.prod (M := 100000) (K := 128) (N := 128) (φ₁ := .f32) (φ₂ := .f32) (V c main_arg0) (V c main_arg2)

/-- What point t writes back is block t of the whole product. -/
theorem flushed_eq (c : Dev nD) (t : Fin cfg0.N) :
    (dat0 V c).flushed 2 t = ((cfg0.win 2).blk t).view.read (Elt Ideal) (wholeProduct V c) := by
  show (cfg0.win 2).cut (grid0.coords t) ((dat0 V c).after 2 t) = _
  rw [after0_2]
  unfold out0_2
  rw [View.canon_unit_zero zero_offsets]
  simp only [View.ld_unit_zero (S := S4000x128) zero_offsets, View.ld_unit_zero (S := S128x128) zero_offsets]
  rw [Products.first_payload]
  obtain ⟨e00, e01, e10, e11, e20, e21⟩ := index_facts t
  have ht : t.val * 4000 + 4000 ≤ 100000 := by have h := t.isLt; have hN : cfg0.N = 25 := N_0; omega
  refine (ProductRowBlocks.prod_block (R := 4000) (M := 100000) (K := 128) (N := 128) (φ₁ := .f32) (φ₂ := .f32)
    (V c main_arg0) (V c main_arg2) (iblk0 V c 0 t) (iblk0 V c 1 t) t.val ht (fun y => ?_) ?_).trans ?_
  · show V c main_arg0 (((cfg0.win 0).blk t).view.emb y) = V c main_arg0 (rowOf (M := 100000) t.val ht y)
    refine congrArg (V c main_arg0) (funext fun a => Fin.ext ?_)
    match a with
    | ⟨0, _⟩ => show win0_0.index t (0 : Fin 2) * 4000 + 1 * (y 0).val = t.val * 4000 + (y 0).val; rw [e00]; omega
    | ⟨1, _⟩ => show win0_0.index t (1 : Fin 2) * 128 + 1 * (y 1).val = (y 1).val; rw [e01]; omega
  · funext z
    show V c main_arg2 (((cfg0.win 1).blk t).view.emb z) = V c main_arg2 z
    refine congrArg (V c main_arg2) (funext fun a => Fin.ext ?_)
    match a with
    | ⟨0, _⟩ => show win0_1.index t (0 : Fin 2) * 128 + 1 * (z 0).val = (z 0).val; rw [e10]; omega
    | ⟨1, _⟩ => show win0_1.index t (1 : Fin 2) * 128 + 1 * (z 1).val = (z 1).val; rw [e11]; omega
  · funext y
    show MatrixProduct.prod (V c main_arg0) (V c main_arg2) (rowOf (M := 100000) t.val ht y) = wholeProduct V c (((cfg0.win 2).blk t).view.emb y)
    unfold wholeProduct
    refine congrArg _ (funext fun a => Fin.ext ?_)
    match a with
    | ⟨0, _⟩ => show t.val * 4000 + (y 0).val = win0_2.index t (0 : Fin 2) * 4000 + 1 * (y 0).val; rw [e20]; omega
    | ⟨1, _⟩ => show (y 1).val = win0_2.index t (1 : Fin 2) * 128 + 1 * (y 1).val; rw [e21]; omega

/-- An index of the output is in point t's block iff each coordinate is in the block's range on its axis. -/
theorem mem_block (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v27).slice (win0_2.rect t)).set ↔ _
  rw [View.set_slice_whole, Rect.mem_set_unit]
  exact Iff.rfl

/-- Every entry of the output lies in the block of the point its row selects. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_2 _, ?_⟩
  rw [mem_block]
  obtain ⟨-, -, -, -, e20, e21⟩ := index_facts ⟨(i 0).val / 4000, by rw [hN]; omega⟩
  intro a
  match a with
  | ⟨0, _⟩ =>
    show win0_2.index _ (0 : Fin 2) * 4000 ≤ (i 0).val ∧ (i 0).val < win0_2.index _ (0 : Fin 2) * 4000 + 4000
    rw [e20]; show (i 0).val / 4000 * 4000 ≤ (i 0).val ∧ (i 0).val < (i 0).val / 4000 * 4000 + 4000; omega
  | ⟨1, _⟩ =>
    show win0_2.index _ (1 : Fin 2) * 128 ≤ (i 1).val ∧ (i 1).val < win0_2.index _ (1 : Fin 2) * 128 + 128
    rw [e21]; omega

/-- After the 25 write-backs the output array is the whole product. -/
theorem array_eq (c : Dev nD) : (dat0 V c).arrAt 2 cfg0.N = wholeProduct V c :=
  (dat0 V c).arrAt_eq_of_cover 2 (wholeProduct V c) (fun t _ => flushed_eq V c t) (covered)

end Cert.KernelIdeal.FirstProduct

end
-- ==== Proof.SecondProduct.lean ====
/-
  The array the second grid leaves: rectify(agg + b1) · W2.

  The grid has 25 points. Point t reads rows 4000·t … 4000·t + 3999 of the aggregated table, the bias as a one-row
  matrix and all of W2; it adds the bias row to every row of its block, rectifies, multiplies by W2 and writes the
  [4000, 64] result back over the same rows of the output. An entry of the rectified sum reads one entry of the table,
  and a row of a product reads only the same row of the left factor; so the block written at point t is rows
  4000·t … 4000·t + 3999 of the whole array rectify(agg + b1) · W2, and the 25 blocks of rows cover every row.
-/
import proofs.«148880_j27693949125321_1_alg».proof.Proof.Gen.KernelIdeal.Frame
import proofs.«148880_j27693949125321_1_alg».proof.Proof.LibMatrixProduct
import Idealize.ShloMosaic.Lib.Pipeline.Value
import Idealize.ShloMosaic.Lib.ValueIdx
import Idealize.ShloMosaic.PureOps.Ideal.Laws
import proofs.«148880_j27693949125321_1_alg».proof.Proof.KernelProducts
import proofs.«148880_j27693949125321_1_alg».proof.Proof.LibProductRowBlocks
import proofs.«148880_j27693949125321_1_alg».proof.Proof.LibRectifiedRows

set_option maxRecDepth 16384

noncomputable section

namespace Cert.KernelIdeal.SecondProduct

open Cert.KernelIdeal Cert.KernelIdeal.Gen Idealize.ShloMosaic Idealize.ShloMosaic.TcCoe Idealize.ShloMosaic.ValueIdx Idealize.SL.Sem
open Idealize.ShloMosaic.Pipeline (Dat)
open Idealize.ShloMosaic.ProductRowBlocks (rowOf rowOf_ix2)
open Idealize.ShloMosaic.RectifiedRows (rectified)

theorem zero_offsets : (![0, 0] : Fin 2 → Nat) = fun _ => 0 := funext fun a => by fin_cases a <;> rfl

variable (V : (c : Dev nD) → (b : Ref sig .tc) → Buf (Elt Ideal) ((c : Thread nD τ).loc b))

/-- The printed index maps over the grid: the two row-blocked windows sit at block (t, 0), the bias row and the
    weights at (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The hidden layer the region's operands define: the table with the bias row added to every row, rectified. -/
def hiddenLayer (c : Dev nD) : FVec Ideal S100000x128 .f32 :=
  rectified (M := 100000) (n := 128) (V c main_v40) (V c main_v41)

/-- The whole product of the hidden layer and the weights the region finds. -/
def wholeProduct (c : Dev nD) : FVec Ideal S100000x64 .f32 :=
  MatrixProduct.prod (M := 100000) (K := 128) (N := 64) (φ₁ := .f32) (φ₂ := .f32) (hiddenLayer V c) (V c main_arg4)

/-- What point t writes back is block t of the whole product. -/
theorem flushed_eq (c : Dev nD) (t : Fin cfg1.N) :
    (dat1 V c).flushed 3 t = ((cfg1.win 3).blk t).view.read (Elt Ideal) (wholeProduct V c) := by
  show (cfg1.win 3).cut (grid1.coords t) ((dat1 V c).after 3 t) = _
  rw [after1_3]
  unfold out1_3
  rw [View.canon_unit_zero zero_offsets]
  simp only [View.ld_unit_zero (S := S4000x128) zero_offsets, View.ld_unit_zero (S := S1x128) zero_offsets, View.ld_unit_zero (S := S128x64) zero_offsets]
  rw [Products.second_payload]
  obtain ⟨e00, e01, e10, e11, e20, e21, e30, e31⟩ := index_facts t
  have ht : t.val * 4000 + 4000 ≤ 100000 := by have h := t.isLt; have hN : cfg1.N = 25 := N_1; omega
  have hrow : iblk1 V c 1 t = V c main_v41 := by
    funext z
    show V c main_v41 (((cfg1.win 1).blk t).view.emb z) = V c main_v41 z
    refine congrArg (V c main_v41) (funext fun a => Fin.ext ?_)
    match a with
    | ⟨0, _⟩ => show win1_1.index t (0 : Fin 2) * 1 + 1 * (z 0).val = (z 0).val; rw [e10]; omega
    | ⟨1, _⟩ => show win1_1.index t (1 : Fin 2) * 128 + 1 * (z 1).val = (z 1).val; rw [e11]; omega
  refine (ProductRowBlocks.prod_block (R := 4000) (M := 100000) (K := 128) (N := 64) (φ₁ := .f32) (φ₂ := .f32)
    (hiddenLayer V c) (V c main_arg4) (rectified (M := 4000) (n := 128) (iblk1 V c 0 t) (iblk1 V c 1 t)) (iblk1 V c 2 t) t.val ht (fun y => ?_) ?_).trans ?_
  · obtain ⟨p, k, rfl⟩ : ∃ (p : Fin 4000) (k : Fin 128), y = ix2 p k := ⟨y 0, y 1, eq_ix2 y⟩
    rw [rowOf_ix2, hrow]
    unfold hiddenLayer
    refine RectifiedRows.rectified_row (V c main_v40) (iblk1 V c 0 t) (V c main_v41) _ p k ?_
    show V c main_v40 (((cfg1.win 0).blk t).view.emb (ix2 p k)) = V c main_v40 _
    refine congrArg (V c main_v40) (funext fun a => Fin.ext ?_)
    match a with
    | ⟨0, _⟩ => show win1_0.index t (0 : Fin 2) * 4000 + 1 * p.val = t.val * 4000 + p.val; rw [e00]; omega
    | ⟨1, _⟩ => show win1_0.index t (1 : Fin 2) * 128 + 1 * k.val = k.val; rw [e01]; omega
  · funext z
    show V c main_arg4 (((cfg1.win 2).blk t).view.emb z) = V c main_arg4 z
    refine congrArg (V c main_arg4) (funext fun a => Fin.ext ?_)
    match a with
    | ⟨0, _⟩ => show win1_2.index t (0 : Fin 2) * 128 + 1 * (z 0).val = (z 0).val; rw [e20]; omega
    | ⟨1, _⟩ => show win1_2.index t (1 : Fin 2) * 64 + 1 * (z 1).val = (z 1).val; rw [e21]; omega
  · funext y
    show MatrixProduct.prod (hiddenLayer V c) (V c main_arg4) (rowOf (M := 100000) t.val ht y) = wholeProduct V c (((cfg1.win 3).blk t).view.emb y)
    unfold wholeProduct
    refine congrArg _ (funext fun a => Fin.ext ?_)
    match a with
    | ⟨0, _⟩ => show t.val * 4000 + (y 0).val = win1_3.index t (0 : Fin 2) * 4000 + 1 * (y 0).val; rw [e30]; omega
    | ⟨1, _⟩ => show (y 1).val = win1_3.index t (1 : Fin 2) * 64 + 1 * (y 1).val; rw [e31]; omega

/-- An index of the output is in point t's block iff each coordinate is in the block's range on its axis. -/
theorem mem_block (t : Fin cfg1.N) (i : S100000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v42).slice (win1_3.rect t)).set ↔ _
  rw [View.set_slice_whole, Rect.mem_set_unit]
  exact Iff.rfl

/-- Every entry of the output lies in the block of the point its row selects. -/
theorem covered (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 25 := N_1
  refine ⟨⟨(i 0).val / 4000, by rw [hN]; omega⟩, flush1_3 _, ?_⟩
  rw [mem_block]
  obtain ⟨-, -, -, -, -, -, e30, e31⟩ := index_facts ⟨(i 0).val / 4000, by rw [hN]; omega⟩
  intro a
  match a with
  | ⟨0, _⟩ =>
    show win1_3.index _ (0 : Fin 2) * 4000 ≤ (i 0).val ∧ (i 0).val < win1_3.index _ (0 : Fin 2) * 4000 + 4000
    rw [e30]; show (i 0).val / 4000 * 4000 ≤ (i 0).val ∧ (i 0).val < (i 0).val / 4000 * 4000 + 4000; omega
  | ⟨1, _⟩ =>
    show win1_3.index _ (1 : Fin 2) * 64 ≤ (i 1).val ∧ (i 1).val < win1_3.index _ (1 : Fin 2) * 64 + 64
    rw [e31]; omega

/-- After the 25 write-backs the output array is the whole product. -/
theorem array_eq (c : Dev nD) : (dat1 V c).arrAt 3 cfg1.N = wholeProduct V c :=
  (dat1 V c).arrAt_eq_of_cover 3 (wholeProduct V c) (fun t _ => flushed_eq V c t) (covered)

end Cert.KernelIdeal.SecondProduct

end
-- ==== Proof.HostSide.lean ====
/-
  The two programs compute one function of the arguments.

  Both programs are a two-layer graph convolution. From the edge list e they form the source and destination index
  arrays (the edges followed by one self-loop per node) and the edge weights dinv[src]·dinv[dst], dinv the inverse
  square root of the in-degree. A layer takes a table T with one row per node, gathers row src(j) for every edge j,
  scales it by the edge's weight and adds it into row dst(j) of a zero table (`aggregate128`, `aggregate64`: the same
  operations at widths 128 and 64, the table left abstract). The result is

      aggregate64 (rectify (aggregate128 (x · W1) + b1) · W2) + b2

  with the bias b1 added to every row before the rectifier. The host operations of the two programs are the same,
  line for line, so read at the stages the reference names they are the same terms; what differs is how the two
  products are taken (a grid of row blocks against one dot_general) and how the bias row and the rectifier are spelt,
  and those are equal arrays on the extended reals (the product array, the rectified sum).
-/
import proofs.«148880_j27693949125321_1_alg».proof.Proof.Gen.KernelIdeal.Frame
import proofs.«148880_j27693949125321_1_alg».proof.Proof.Gen.ReferenceIdeal.Read
import proofs.«148880_j27693949125321_1_alg».proof.Proof.FirstProduct
import proofs.«148880_j27693949125321_1_alg».proof.Proof.SecondProduct
import proofs.«148880_j27693949125321_1_alg».proof.Proof.LibMatrixProduct
import proofs.«148880_j27693949125321_1_alg».proof.Proof.LibRectifiedRows

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo
open Cert.ReferenceIdeal.Read (val_main_v3 val_main_v6 val_main_v26 val_main_v27 val_main_v33 val_main_v36 val_main_v38 val_main_v39 val_main_v40
  val_main_v42 val_main_v43 val_main_v44 val_main_v45 val_main_call0_v0 val_main_v51 val_main_v54 val_main_v56 val_main_v57 val_main_v58 val_main_v60 val_main_v61)
open Idealize.ShloMosaic.RectifiedRows (rectified)
open Idealize.ShloMosaic.ValueIdx

/-! ## The function -/

/-- One aggregation at width 128 of any table T along the edges e: gather the sources' rows, scale each by its
    edge's weight, add into the destinations' rows of a zero table. -/
def aggregate128 (T : FVec Ideal S100000x128 .f32) (e : (⟨S2x1600000, .i32⟩ : BufTy).Contents (Elt Ideal)) : FVec Ideal S100000x128 .f32 :=
  Host.scatterAdd Cert.ReferenceIdeal.scatter_S100000x128_S1700000x1_S1700000x128_1_0_0_1 (val_main_v38 (F := Ideal)) (val_main_v39 (F := Ideal) e)
    (mulf (Host.gather Cert.ReferenceIdeal.gather_S100000x128_S1700000x1_S1700000x128_1_0_n_n_0_1_1128 T (val_main_v33 (F := Ideal) e)) (val_main_v36 (F := Ideal) e))

/-- The same at width 64. -/
def aggregate64 (T : FVec Ideal S100000x64 .f32) (e : (⟨S2x1600000, .i32⟩ : BufTy).Contents (Elt Ideal)) : FVec Ideal S100000x64 .f32 :=
  Host.scatterAdd Cert.ReferenceIdeal.scatter_S100000x64_S1700000x1_S1700000x64_1_0_0_1 (val_main_v56 (F := Ideal)) (val_main_v57 (F := Ideal) e)
    (mulf (Host.gather Cert.ReferenceIdeal.gather_S100000x64_S1700000x1_S1700000x64_1_0_n_n_0_1_164 T (val_main_v51 (F := Ideal) e)) (val_main_v54 (F := Ideal) e))

/-- The two layers: aggregate64 (rectify (aggregate128 (x · W1) + b1) · W2) + b2. -/
def twoLayers (x : FVec Ideal S100000x128 .f32) (e : (⟨S2x1600000, .i32⟩ : BufTy).Contents (Elt Ideal)) (w1 : FVec Ideal S128x128 .f32)
    (b1 : FVec Ideal S128 .f32) (w2 : FVec Ideal S128x64 .f32) (b2 : FVec Ideal S64 .f32) : FVec Ideal S100000x64 .f32 :=
  addf (aggregate64 (MatrixProduct.prod (M := 100000) (K := 128) (N := 64) (φ₁ := .f32) (φ₂ := .f32)
      (rectified (M := 100000) (n := 128) (aggregate128 (MatrixProduct.prod (M := 100000) (K := 128) (N := 128) (φ₁ := .f32) (φ₂ := .f32) x w1) e)
        (shapeCast S1x128 b1 shapeCasts_S128_S1x128)) w2) e)
    (val_main_v60 (F := Ideal) b2)

/-! ## The reference is that function -/

/-- The reference's last stage, as a function of its arguments, is `twoLayers`: its two dot_general's are the product
    arrays, its bias broadcast and outlined rectifier the rectified sum. -/
theorem reference_eq (x : FVec Ideal S100000x128 .f32) (e : (⟨S2x1600000, .i32⟩ : BufTy).Contents (Elt Ideal)) (w1 : FVec Ideal S128x128 .f32)
    (b1 : FVec Ideal S128 .f32) (w2 : FVec Ideal S128x64 .f32) (b2 : FVec Ideal S64 .f32) :
    val_main_v61 (F := Ideal) x e w1 b1 w2 b2 = twoLayers x e w1 b1 w2 b2 := by
  have h1 : val_main_v27 (F := Ideal) x w1 = MatrixProduct.prod (M := 100000) (K := 128) (N := 128) (φ₁ := .f32) (φ₂ := .f32) x w1 :=
    MatrixProduct.dotGeneral_eq (M := 100000) (K := 128) (N := 128) Cert.ReferenceIdeal.dot_S100000x128_S128x128_S100000x128_1_0_0_1_n_n rfl rfl
      Cert.ReferenceIdeal.Read.lhs_main_v27_0 Cert.ReferenceIdeal.Read.lhs_main_v27_1 Cert.ReferenceIdeal.Read.rhs_main_v27_0 Cert.ReferenceIdeal.Read.rhs_main_v27_1 none x w1
  have h2 : val_main_v40 (F := Ideal) x e w1 = aggregate128 (MatrixProduct.prod (M := 100000) (K := 128) (N := 128) (φ₁ := .f32) (φ₂ := .f32) x w1) e := by
    rw [← h1]; rfl
  have h3 : val_main_v44 (F := Ideal) x e w1 b1
      = rectified (M := 100000) (n := 128) (aggregate128 (MatrixProduct.prod (M := 100000) (K := 128) (N := 128) (φ₁ := .f32) (φ₂ := .f32) x w1) e) (shapeCast S1x128 b1 shapeCasts_S128_S1x128) := by
    funext i
    obtain ⟨p, q, rfl⟩ : ∃ (p : Fin 100000) (q : Fin 128), i = ix2 p q := ⟨i 0, i 1, eq_ix2 i⟩
    rw [Cert.ReferenceIdeal.Read.val_main_v44_apply, Cert.ReferenceIdeal.Read.val_main_v43_apply, h2, Cert.ReferenceIdeal.Read.val_main_v42_apply, Cert.ReferenceIdeal.Read.val_main_v41_apply,
      Cert.ReferenceIdeal.Read.val_main_call0_v0_apply, Cert.ReferenceIdeal.Read.val_main_call0_cst_apply, RectifiedRows.rectified_apply, OneRowMatrix.row_of_vector]
    have hidx : Cert.ReferenceIdeal.Read.idx_main_v41 (Cert.ReferenceIdeal.Read.idx_main_v42 (ix2 p q)) = ix1 q := funext fun a => Fin.ext (by
      match a with
      | ⟨0, _⟩ => rfl)
    rw [hidx]
  have h4 : val_main_v45 (F := Ideal) x e w1 b1 w2
      = MatrixProduct.prod (M := 100000) (K := 128) (N := 64) (φ₁ := .f32) (φ₂ := .f32)
          (rectified (M := 100000) (n := 128) (aggregate128 (MatrixProduct.prod (M := 100000) (K := 128) (N := 128) (φ₁ := .f32) (φ₂ := .f32) x w1) e) (shapeCast S1x128 b1 shapeCasts_S128_S1x128)) w2 := by
    show Host.dotGeneral Cert.ReferenceIdeal.dot_S100000x128_S128x64_S100000x64_1_0_0_1_n_n none (val_main_v44 (F := Ideal) x e w1 b1) w2 = _
    rw [h3]
    exact MatrixProduct.dotGeneral_eq (M := 100000) (K := 128) (N := 64) Cert.ReferenceIdeal.dot_S100000x128_S128x64_S100000x64_1_0_0_1_n_n rfl rfl
      Cert.ReferenceIdeal.Read.lhs_main_v45_0 Cert.ReferenceIdeal.Read.lhs_main_v45_1 Cert.ReferenceIdeal.Read.rhs_main_v45_0 Cert.ReferenceIdeal.Read.rhs_main_v45_1 none _ w2
  have h5 : val_main_v58 (F := Ideal) x e w1 b1 w2 = aggregate64 (val_main_v45 (F := Ideal) x e w1 b1 w2) e := rfl
  unfold Cert.ReferenceIdeal.Read.val_main_v61 twoLayers
  rw [h5, h4]

/-! ## The kernel is that function -/

variable (m : (ℓ : Loc nD τ sig) → Buf (Elt Ideal) ℓ) (ρ : Dev nD → PrngReg)

/-! ### After the first stretch of host operations: the index arrays and the edge weights, and the arguments untouched -/

theorem src1 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl
theorem dst1 (c : Dev nD) : W1 m ρ c (Proc.devRef .tc main_v6) = val_main_v6 (F := Ideal) (m ((c : Thread nD τ).loc main_arg1)) := by
  show StableHlo.after hostOps0 (W0 m ρ c) (Proc.devRef .tc main_v6) = _
  after_results_simp
  rfl
theorem norm1 (c : Dev nD) : W1 m ρ c (Proc.devRef .tc main_v26) = val_main_v26 (F := Ideal) (m ((c : Thread nD τ).loc main_arg1)) := by
  show StableHlo.after hostOps0 (W0 m ρ c) (Proc.devRef .tc main_v26) = _
  after_results_simp
  rfl
theorem x1 (c : Dev nD) : W1 m ρ c (Proc.devRef .tc main_arg0) = m ((c : Thread nD τ).loc main_arg0) := by
  show StableHlo.after hostOps0 (W0 m ρ c) (Proc.devRef .tc main_arg0) = _
  after_results_simp
theorem w1_1 (c : Dev nD) : W1 m ρ c (Proc.devRef .tc main_arg2) = m ((c : Thread nD τ).loc main_arg2) := by
  show StableHlo.after hostOps0 (W0 m ρ c) (Proc.devRef .tc main_arg2) = _
  after_results_simp
theorem b1_1 (c : Dev nD) : W1 m ρ c (Proc.devRef .tc main_arg3) = m ((c : Thread nD τ).loc main_arg3) := by
  show StableHlo.after hostOps0 (W0 m ρ c) (Proc.devRef .tc main_arg3) = _
  after_results_simp
theorem w2_1 (c : Dev nD) : W1 m ρ c (Proc.devRef .tc main_arg4) = m ((c : Thread nD τ).loc main_arg4) := by
  show StableHlo.after hostOps0 (W0 m ρ c) (Proc.devRef .tc main_arg4) = _
  after_results_simp
theorem b2_1 (c : Dev nD) : W1 m ρ c (Proc.devRef .tc main_arg5) = m ((c : Thread nD τ).loc main_arg5) := by
  show StableHlo.after hostOps0 (W0 m ρ c) (Proc.devRef .tc main_arg5) = _
  after_results_simp

/-! ### After the first grid: its output is x · W1, everything else as before -/

theorem table2 (c : Dev nD) : W2 m ρ c (Proc.devRef .tc main_v27)
    = MatrixProduct.prod (M := 100000) (K := 128) (N := 128) (φ₁ := .f32) (φ₂ := .f32) (m ((c : Thread nD τ).loc main_arg0)) (m ((c : Thread nD τ).loc main_arg2)) := by
  refine (W2_arr m ρ c 2).trans ((FirstProduct.array_eq (V1 m ρ) c).trans ?_)
  unfold FirstProduct.wholeProduct
  rw [show V1 m ρ c main_arg0 = m ((c : Thread nD τ).loc main_arg0) from x1 m ρ c, show V1 m ρ c main_arg2 = m ((c : Thread nD τ).loc main_arg2) from w1_1 m ρ c]
theorem src2 (c : Dev nD) : W2 m ρ c (Proc.devRef .tc main_v3) = val_main_v3 (F := Ideal) (m ((c : Thread nD τ).loc main_arg1)) :=
  (W2_of_ne m ρ c main_v3 (by decide)).trans (src1 m ρ c)
theorem dst2 (c : Dev nD) : W2 m ρ c (Proc.devRef .tc main_v6) = val_main_v6 (F := Ideal) (m ((c : Thread nD τ).loc main_arg1)) :=
  (W2_of_ne m ρ c main_v6 (by decide)).trans (dst1 m ρ c)
theorem norm2 (c : Dev nD) : W2 m ρ c (Proc.devRef .tc main_v26) = val_main_v26 (F := Ideal) (m ((c : Thread nD τ).loc main_arg1)) :=
  (W2_of_ne m ρ c main_v26 (by decide)).trans (norm1 m ρ c)
theorem b1_2 (c : Dev nD) : W2 m ρ c (Proc.devRef .tc main_arg3) = m ((c : Thread nD τ).loc main_arg3) :=
  (W2_of_ne m ρ c main_arg3 (by decide)).trans (b1_1 m ρ c)
theorem w2_2 (c : Dev nD) : W2 m ρ c (Proc.devRef .tc main_arg4) = m ((c : Thread nD τ).loc main_arg4) :=
  (W2_of_ne m ρ c main_arg4 (by decide)).trans (w2_1 m ρ c)
theorem b2_2 (c : Dev nD) : W2 m ρ c (Proc.devRef .tc main_arg5) = m ((c : Thread nD τ).loc main_arg5) :=
  (W2_of_ne m ρ c main_arg5 (by decide)).trans (b2_1 m ρ c)

/-! ### After the second stretch: the aggregated table and the bias as a one-row matrix -/

theorem table3 (c : Dev nD) : W3 m ρ c (Proc.devRef .tc main_v40)
    = aggregate128 (MatrixProduct.prod (M := 100000) (K := 128) (N := 128) (φ₁ := .f32) (φ₂ := .f32) (m ((c : Thread nD τ).loc main_arg0)) (m ((c : Thread nD τ).loc main_arg2)))
        (m ((c : Thread nD τ).loc main_arg1)) := by
  show StableHlo.after hostOps1 (W2 m ρ c) (Proc.devRef .tc main_v40) = _
  after_results_simp
  rw [src2 m ρ c, dst2 m ρ c, norm2 m ρ c, table2 m ρ c]
  rfl
theorem row3 (c : Dev nD) : W3 m ρ c (Proc.devRef .tc main_v41) = shapeCast S1x128 (m ((c : Thread nD τ).loc main_arg3)) shapeCasts_S128_S1x128 := by
  show StableHlo.after hostOps1 (W2 m ρ c) (Proc.devRef .tc main_v41) = _
  after_results_simp
  rw [b1_2 m ρ c]
  rfl
theorem src3 (c : Dev nD) : W3 m ρ c (Proc.devRef .tc main_v3) = val_main_v3 (F := Ideal) (m ((c : Thread nD τ).loc main_arg1)) := by
  show StableHlo.after hostOps1 (W2 m ρ c) (Proc.devRef .tc main_v3) = _
  after_results_simp
  exact src2 m ρ c
theorem dst3 (c : Dev nD) : W3 m ρ c (Proc.devRef .tc main_v6) = val_main_v6 (F := Ideal) (m ((c : Thread nD τ).loc main_arg1)) := by
  show StableHlo.after hostOps1 (W2 m ρ c) (Proc.devRef .tc main_v6) = _
  after_results_simp
  exact dst2 m ρ c
theorem norm3 (c : Dev nD) : W3 m ρ c (Proc.devRef .tc main_v26) = val_main_v26 (F := Ideal) (m ((c : Thread nD τ).loc main_arg1)) := by
  show StableHlo.after hostOps1 (W2 m ρ c) (Proc.devRef .tc main_v26) = _
  after_results_simp
  exact norm2 m ρ c
theorem w2_3 (c : Dev nD) : W3 m ρ c (Proc.devRef .tc main_arg4) = m ((c : Thread nD τ).loc main_arg4) := by
  show StableHlo.after hostOps1 (W2 m ρ c) (Proc.devRef .tc main_arg4) = _
  after_results_simp
  exact w2_2 m ρ c
theorem b2_3 (c : Dev nD) : W3 m ρ c (Proc.devRef .tc main_arg5) = m ((c : Thread nD τ).loc main_arg5) := by
  show StableHlo.after hostOps1 (W2 m ρ c) (Proc.devRef .tc main_arg5) = _
  after_results_simp
  exact b2_2 m ρ c

/-! ### After the second grid: its output is rectify(agg + b1) · W2 -/

theorem table4 (c : Dev nD) : W4 m ρ c (Proc.devRef .tc main_v42)
    = MatrixProduct.prod (M := 100000) (K := 128) (N := 64) (φ₁ := .f32) (φ₂ := .f32)
        (rectified (M := 100000) (n := 128)
          (aggregate128 (MatrixProduct.prod (M := 100000) (K := 128) (N := 128) (φ₁ := .f32) (φ₂ := .f32) (m ((c : Thread nD τ).loc main_arg0)) (m ((c : Thread nD τ).loc main_arg2)))
            (m ((c : Thread nD τ).loc main_arg1)))
          (shapeCast S1x128 (m ((c : Thread nD τ).loc main_arg3)) shapeCasts_S128_S1x128))
        (m ((c : Thread nD τ).loc main_arg4)) := by
  refine (W4_arr m ρ c 3).trans ((SecondProduct.array_eq (V3 m ρ) c).trans ?_)
  unfold SecondProduct.wholeProduct SecondProduct.hiddenLayer
  rw [show V3 m ρ c main_v40 = _ from table3 m ρ c, show V3 m ρ c main_v41 = _ from row3 m ρ c, show V3 m ρ c main_arg4 = _ from w2_3 m ρ c]
theorem src4 (c : Dev nD) : W4 m ρ c (Proc.devRef .tc main_v3) = val_main_v3 (F := Ideal) (m ((c : Thread nD τ).loc main_arg1)) :=
  (W4_of_ne m ρ c main_v3 (by decide)).trans (src3 m ρ c)
theorem dst4 (c : Dev nD) : W4 m ρ c (Proc.devRef .tc main_v6) = val_main_v6 (F := Ideal) (m ((c : Thread nD τ).loc main_arg1)) :=
  (W4_of_ne m ρ c main_v6 (by decide)).trans (dst3 m ρ c)
theorem norm4 (c : Dev nD) : W4 m ρ c (Proc.devRef .tc main_v26) = val_main_v26 (F := Ideal) (m ((c : Thread nD τ).loc main_arg1)) :=
  (W4_of_ne m ρ c main_v26 (by decide)).trans (norm3 m ρ c)
theorem b2_4 (c : Dev nD) : W4 m ρ c (Proc.devRef .tc main_arg5) = m ((c : Thread nD τ).loc main_arg5) :=
  (W4_of_ne m ρ c main_arg5 (by decide)).trans (b2_3 m ρ c)

/-! ### After the last stretch: the result -/

/-- The kernel's result buffer after the whole run is `twoLayers` of the arguments as launched. -/
theorem result_eq (c : Dev nD) : W5 m ρ c (Proc.devRef .tc main_v58)
    = twoLayers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  show StableHlo.after hostOps2 (W4 m ρ c) (Proc.devRef .tc main_v58) = _
  after_results_simp
  rw [src4 m ρ c, dst4 m ρ c, norm4 m ρ c, b2_4 m ρ c, table4 m ρ c]
  rfl

end Cert.KernelIdeal.HostSide

end
-- ==== Proof.lean ====
/-
  A two-layer graph convolution on 100000 nodes and 1600000 edges (plus one self-loop per node), features
  128 → 128 → 64:

      out = Â · rectify(Â · (x · W1) + b1) · W2 + b2,   Â = D^(-1/2) (A + I) D^(-1/2),

  where multiplying by Â is spelt as gather by source, scale by the edge's weight dinv[src]·dinv[dst], scatter-add by
  destination. The kernel takes the two dense products x · W1 and rectify(· + b1) · W2 on a grid of 25 blocks of 4000
  rows each, in a narrower float format accumulated into zero; the reference takes each as one dot_general; everything
  else is the same host operations in the same order.

  On the extended reals a change of float format is the identity and a sum has no order, so a grid point's product is
  the product of its blocks; a row of a product reads only that row of the left factor, so the blocks written back are
  the blocks of rows of the whole product, and they cover the output. With the two products and the rectified bias sum
  identified, both programs end at one term of the arguments (`twoLayers`). No input needs to be finite for that:
  no law beyond reordering a sum is used.

  The three frames: each program terminates without a fault and leaves its arguments as launched. The kernel's two
  are the launch over its five stretches; the reference's is its run with the result dropped. The idealization
  rewrote nothing, so it is preserved trivially.
-/
import proofs.«148880_j27693949125321_1_alg».proof.Defs
import proofs.«148880_j27693949125321_1_alg».proof.Proof.Gen.Kernel
import proofs.«148880_j27693949125321_1_alg».proof.Proof.Gen.Kernel.Skeleton
import proofs.«148880_j27693949125321_1_alg».proof.Proof.Gen.Kernel.Launch
import proofs.«148880_j27693949125321_1_alg».proof.Proof.Gen.Kernel.Points
import proofs.«148880_j27693949125321_1_alg».proof.Proof.Gen.Kernel.Frame
import proofs.«148880_j27693949125321_1_alg».proof.Proof.Gen.KernelIdeal
import proofs.«148880_j27693949125321_1_alg».proof.Proof.Gen.KernelIdeal.Skeleton
import proofs.«148880_j27693949125321_1_alg».proof.Proof.Gen.KernelIdeal.Launch
import proofs.«148880_j27693949125321_1_alg».proof.Proof.Gen.KernelIdeal.Points
import proofs.«148880_j27693949125321_1_alg».proof.Proof.Gen.KernelIdeal.Frame
import proofs.«148880_j27693949125321_1_alg».proof.Proof.Gen.ReferenceIdeal
import proofs.«148880_j27693949125321_1_alg».proof.Proof.Gen.Pre_finite_inputs
import proofs.«148880_j27693949125321_1_alg».proof.Proof.Gen.ReferenceIdeal.Run
import proofs.«148880_j27693949125321_1_alg».proof.Proof.Gen.ReferenceIdeal.Read
import proofs.«148880_j27693949125321_1_alg».proof.Proof.KernelRun
import proofs.«148880_j27693949125321_1_alg».proof.Proof.HostSide
import Idealize.ShloMosaic.Adequacy
import Idealize.ShloMosaic.Init

noncomputable section

namespace Cert.Proof

open Idealize.ShloMosaic Idealize.SL.Sem

/-- The kernel as printed terminates, faults nowhere and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the result at `twoLayers` of the arguments:
    the kernel by reading its last stretch back through the two grids, the reference by reading its last stage. -/
theorem algebraic : Cert.algebraic_KernelIdeal_ReferenceIdeal := by
  intro m ρ m' ρ' _ hagree
  refine ⟨fun c => Cert.KernelIdeal.HostSide.twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostSide.result_eq m ρ c), (h c).2⟩)
      (Cert.KernelIdeal.WholeRun.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := hagree c
    rw [Cert.ReferenceIdeal.Read.val_main_v61_eq, Cert.KernelIdeal.HostSide.reference_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
